-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S5x10 : Shape := ⟨2, ![5, 10]⟩
abbrev S5 : Shape := ⟨1, ![5]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S5x10 : S_.BroadcastsInDim S5x10 (![] : Fin 0 → Fin S5x10.rank)
  reducesTo_S5x10_S_d0_1 : S5x10.ReducesTo [0, 1] S_
  bcast_S_S5 : S_.BroadcastsInDim S5 (![] : Fin 0 → Fin S5.rank)
  reducesTo_S5_S_d0 : S5.ReducesTo [0] S_

variable [Facts]

def fn {F : FTy → Type} [FloatOps F] (main_arg0 : FVec F S1048576x10 .f32) (main_arg1 : FVec F S5x10 .f32) (main_arg2 : FVec F S5 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S5x10 .f32 := Host.absf main_arg1
  let main_cst_0 : FVec F S_ .f32 := constant S_ .f32 0x7F800000#32
  let main_v5 : FVec F S5x10 .f32 := broadcastInDim S5x10 ![] bcast_S_S5x10 main_cst_0
  let main_v6 : IVec S5x10 1 := cmpf .olt main_v4 main_v5
  let main_c_1 : IVec S_ 1 := constantI S_ 1 1#1
  let main_v7 : IVec S_ 1 := (fun x v => Host.reduce IntOp.andi x v reducesTo_S5x10_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  main_v13
-- ==== Kernel.lean ====
abbrev S1048576x10 : Shape := ⟨2, ![1048576, 10]⟩
abbrev S5x10 : Shape := ⟨2, ![5, 10]⟩
abbrev S5 : Shape := ⟨1, ![5]⟩
abbrev S8192x1280 : Shape := ⟨2, ![8192, 1280]⟩
abbrev S128x128 : Shape := ⟨2, ![128, 128]⟩
abbrev S_ : Shape := ⟨0, ![]⟩
abbrev S10x5 : Shape := ⟨2, ![10, 5]⟩
abbrev S128x1x128x1 : Shape := ⟨4, ![128, 1, 128, 1]⟩
abbrev S1x10x1x5 : Shape := ⟨4, ![1, 10, 1, 5]⟩
abbrev S128x10x128x5 : Shape := ⟨4, ![128, 10, 128, 5]⟩
abbrev S1280x640 : Shape := ⟨2, ![1280, 640]⟩
abbrev S1x5 : Shape := ⟨2, ![1, 5]⟩
abbrev S128x5 : Shape := ⟨2, ![128, 5]⟩
abbrev S640 : Shape := ⟨1, ![640]⟩
abbrev S1x640 : Shape := ⟨2, ![1, 640]⟩
abbrev S8192x640 : Shape := ⟨2, ![8192, 640]⟩
abbrev S1024x1280 : Shape := ⟨2, ![1024, 1280]⟩
abbrev S1024x640 : Shape := ⟨2, ![1024, 640]⟩
abbrev S1048576x5 : Shape := ⟨2, ![1048576, 5]⟩

abbrev nBuf : Space → Nat
  | .hbm => 24
  | .vmem => 6
  | .smem => 0
  | _ => 0

abbrev bufTy : (tb : Table) → Fin (tcTables nBuf tb) → BufTy
  | .hbm, ⟨0, _⟩ => ⟨S1048576x10, .f32⟩
  | .hbm, ⟨1, _⟩ => ⟨S5x10, .f32⟩
  | .hbm, ⟨2, _⟩ => ⟨S5, .f32⟩
  | .hbm, ⟨3, _⟩ => ⟨S8192x1280, .f32⟩
  | .hbm, ⟨4, _⟩ => ⟨S128x128, .i32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .f32⟩
  | .hbm, ⟨11, _⟩ => ⟨S10x5, .f32⟩
  | .hbm, ⟨12, _⟩ => ⟨S128x1x128x1, .f32⟩
  | .hbm, ⟨13, _⟩ => ⟨S1x10x1x5, .f32⟩
  | .hbm, ⟨14, _⟩ => ⟨S128x10x128x5, .f32⟩
  | .hbm, ⟨15, _⟩ => ⟨S128x10x128x5, .f32⟩
  | .hbm, ⟨16, _⟩ => ⟨S128x10x128x5, .f32⟩
  | .hbm, ⟨17, _⟩ => ⟨S1280x640, .f32⟩
  | .hbm, ⟨18, _⟩ => ⟨S1x5, .f32⟩
  | .hbm, ⟨19, _⟩ => ⟨S128x5, .f32⟩
  | .hbm, ⟨20, _⟩ => ⟨S640, .f32⟩
  | .hbm, ⟨21, _⟩ => ⟨S1x640, .f32⟩
  | .hbm, ⟨22, _⟩ => ⟨S8192x640, .f32⟩
  | .hbm, ⟨23, _⟩ => ⟨S1048576x5, .f32⟩
  | .local _ .vmem, ⟨0, _⟩ => ⟨S1024x1280, .f32⟩
  | .local _ .vmem, ⟨1, _⟩ => ⟨S1024x1280, .f32⟩
  | .local _ .vmem, ⟨2, _⟩ => ⟨S1280x640, .f32⟩
  | .local _ .vmem, ⟨3, _⟩ => ⟨S1x640, .f32⟩
  | .local _ .vmem, ⟨4, _⟩ => ⟨S1024x640, .f32⟩
  | .local _ .vmem, ⟨5, _⟩ => ⟨S1024x640, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1048576x10_S8192x1280 : S1048576x10.ShapeCasts S8192x1280
  bcast_S_S128x128 : S_.BroadcastsInDim S128x128 (![] : Fin 0 → Fin S128x128.rank)
  transposes_S5x10_S10x5_1_0 : S5x10.Transposes [1, 0] S10x5
  bcast_S128x128_S128x1x128x1_0_2 : S128x128.BroadcastsInDim S128x1x128x1 (![0, 2] : Fin 2 → Fin S128x1x128x1.rank)
  bcast_S10x5_S1x10x1x5_1_3 : S10x5.BroadcastsInDim S1x10x1x5 (![1, 3] : Fin 2 → Fin S1x10x1x5.rank)
  bcast_S128x1x128x1_S128x10x128x5_0_1_2_3 : S128x1x128x1.BroadcastsInDim S128x10x128x5 (![0, 1, 2, 3] : Fin 4 → Fin S128x10x128x5.rank)
  bcast_S1x10x1x5_S128x10x128x5_0_1_2_3 : S1x10x1x5.BroadcastsInDim S128x10x128x5 (![0, 1, 2, 3] : Fin 4 → Fin S128x10x128x5.rank)
  shapeCasts_S128x10x128x5_S1280x640 : S128x10x128x5.ShapeCasts S1280x640
  shapeCasts_S5_S1x5 : S5.ShapeCasts S1x5
  bcast_S1x5_S128x5_0_1 : S1x5.BroadcastsInDim S128x5 (![0, 1] : Fin 2 → Fin S128x5.rank)
  shapeCasts_S128x5_S640 : S128x5.ShapeCasts S640
  shapeCasts_S640_S1x640 : S640.ShapeCasts S1x640
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1280x640_S1280x640_0_0 : ∀ a, (![0, 0] : Fin 2 → Nat) a + S1280x640.size a ≤ S1280x640.size a
  h_S1280x640 : 0 < S1280x640.numel
  shapeCasts_S1280x640_S1280x640 : S1280x640.ShapeCasts S1280x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S1024x640 : S1x640.Broadcasts S1024x640
  inb_S1024x640_S1024x640_0_0 : ∀ a, (![0, 0] : Fin 2 → Nat) a + S1024x640.size a ≤ S1024x640.size a
  h_S1024x640 : 0 < S1024x640.numel
  shapeCasts_S8192x640_S1048576x5 : S8192x640.ShapeCasts S1048576x5
  dot_S1024x1280_S1280x640_S1024x640_1_0_0_1_n_n_wf : DotDims.WF S1024x1280 S1280x640 S1024x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S8192x1280.size a
  hwx0_0 : ∀ i : grid0.Coords, EltTy.bits .f32 = 32 ∨ (Rect.block (s := S8192x1280) S1024x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x640.size a ≤ S1280x640.size a
  hwx0_1 : ∀ i : grid0.Coords, EltTy.bits .f32 = 32 ∨ (Rect.block (s := S1280x640) S1280x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x640.size a ≤ S8192x640.size a
  hwx0_3 : ∀ i : grid0.Coords, EltTy.bits .f32 = 32 ∨ (Rect.block (s := S8192x640) S1024x640.size (cc0_transform_3 i) (hinb0_3 i)).WholeWords (EltTy.packing .f32)

variable [Facts₀]

def dot_S1024x1280_S1280x640_S1024x640_1_0_0_1_n_n : DotDims S1024x1280 S1280x640 S1024x640 where
  lhsContracting := [1]
  rhsContracting := [0]
  lhsNonContracting := [0]
  rhsNonContracting := [1]
  lhsBatch := []
  rhsBatch := []
  wf := dot_S1024x1280_S1280x640_S1024x640_1_0_0_1_n_n_wf

abbrev win0_0 : Pipeline.Window sig grid0 :=
  Pipeline.Window.ofSpec (Memref.whole main_v0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1280x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S5x10 : Shape := ⟨2, ![5, 10]⟩
abbrev S5 : Shape := ⟨1, ![5]⟩
abbrev S10x1048576 : Shape := ⟨2, ![10, 1048576]⟩
abbrev S5x1 : Shape := ⟨2, ![5, 1]⟩
abbrev S5x1048576 : Shape := ⟨2, ![5, 1048576]⟩
abbrev S10x32768 : Shape := ⟨2, ![10, 32768]⟩
abbrev S5x32768 : Shape := ⟨2, ![5, 32768]⟩
abbrev S1048576x5 : Shape := ⟨2, ![1048576, 5]⟩

abbrev nBuf : Space → Nat
  | .hbm => 7
  | .vmem => 6
  | .smem => 0
  | _ => 0

abbrev bufTy : (tb : Table) → Fin (tcTables nBuf tb) → BufTy
  | .hbm, ⟨0, _⟩ => ⟨S1048576x10, .f32⟩
  | .hbm, ⟨1, _⟩ => ⟨S5x10, .f32⟩
  | .hbm, ⟨2, _⟩ => ⟨S5, .f32⟩
  | .hbm, ⟨3, _⟩ => ⟨S10x1048576, .f32⟩
  | .hbm, ⟨4, _⟩ => ⟨S5x1, .f32⟩
  | .hbm, ⟨5, _⟩ => ⟨S5x1048576, .f32⟩
  | .hbm, ⟨6, _⟩ => ⟨S1048576x5, .f32⟩
  | .local _ .vmem, ⟨0, _⟩ => ⟨S5x10, .f32⟩
  | .local _ .vmem, ⟨1, _⟩ => ⟨S5x1, .f32⟩
  | .local _ .vmem, ⟨2, _⟩ => ⟨S10x32768, .f32⟩
  | .local _ .vmem, ⟨3, _⟩ => ⟨S10x32768, .f32⟩
  | .local _ .vmem, ⟨4, _⟩ => ⟨S5x32768, .f32⟩
  | .local _ .vmem, ⟨5, _⟩ => ⟨S5x32768, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1048576x10_S10x1048576_1_0 : S1048576x10.Transposes [1, 0] S10x1048576
  shapeCasts_S5_S5x1 : S5.ShapeCasts S5x1
  inb_S5x10_S5x10_0_0 : ∀ a, (![0, 0] : Fin 2 → Nat) a + S5x10.size a ≤ S5x10.size a
  h_S5x10 : 0 < S5x10.numel
  inb_S10x32768_S10x32768_0_0 : ∀ a, (![0, 0] : Fin 2 → Nat) a + S10x32768.size a ≤ S10x32768.size a
  h_S10x32768 : 0 < S10x32768.numel
  shapeCasts_S10x32768_S10x32768 : S10x32768.ShapeCasts S10x32768
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x32768 : S5x1.Broadcasts S5x32768
  inb_S5x32768_S5x32768_0_0 : ∀ a, (![0, 0] : Fin 2 → Nat) a + S5x32768.size a ≤ S5x32768.size a
  h_S5x32768 : 0 < S5x32768.numel
  transposes_S5x1048576_S1048576x5_1_0 : S5x1048576.Transposes [1, 0] S1048576x5
  dot_S5x10_S10x32768_S5x32768_1_0_0_1_n_n_wf : DotDims.WF S5x10 S10x32768 S5x32768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5x10.size a ≤ S5x10.size a
  hwx0_0 : ∀ i : grid0.Coords, EltTy.bits .f32 = 32 ∨ (Rect.block (s := S5x10) S5x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x1.size a ≤ S5x1.size a
  hwx0_1 : ∀ i : grid0.Coords, EltTy.bits .f32 = 32 ∨ (Rect.block (s := S5x1) S5x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x32768.size a ≤ S10x1048576.size a
  hwx0_2 : ∀ i : grid0.Coords, EltTy.bits .f32 = 32 ∨ (Rect.block (s := S10x1048576) S10x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x32768.size a ≤ S5x1048576.size a
  hwx0_3 : ∀ i : grid0.Coords, EltTy.bits .f32 = 32 ∨ (Rect.block (s := S5x1048576) S5x32768.size (cc0_transform_3 i) (hinb0_3 i)).WholeWords (EltTy.packing .f32)

variable [Facts₀]

def dot_S5x10_S10x32768_S5x32768_1_0_0_1_n_n : DotDims S5x10 S10x32768 S5x32768 where
  lhsContracting := [1]
  rhsContracting := [0]
  lhsNonContracting := [0]
  rhsNonContracting := [1]
  lhsBatch := []
  rhsBatch := []
  wf := dot_S5x10_S10x32768_S5x32768_1_0_0_1_n_n_wf

abbrev win0_0 : Pipeline.Window sig grid0 :=
  Pipeline.Window.ofSpec (Memref.whole main_arg1) S5x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.KerBody.lean ====
/-
  One entry of the kernel's output block.

  The kernel's body multiplies a 1024×1280 block of the input, viewed with 128 consecutive rows of ten features side
  by side in each of its rows, by the whole 1280×640 block-diagonal weight matrix and adds the bias, tiled 128 times
  into a 1×640 row and spread down the block's rows. Read over the extended reals, entry `(r, cc)` of what it stores
  is `Σ_{q < 1280} xb(r, q) · wbig(q, cc) + brow(0, cc)`: the product is taken into a zero accumulator, so nothing but
  the plain sum is left of it, and the three shape casts are casts of a shape to itself.
-/
import proofs.«143315_g2000306541791108_pallasbulk_683_3_alg».proof.Proof.Gen.KernelIdeal.Skeleton
import proofs.«143315_g2000306541791108_pallasbulk_683_3_alg».proof.Proof.LibPlainDot
import Idealize.ShloMosaic.Lib.Pipeline.Value
import Idealize.ShloMosaic.Lib.ValueIdx
import Idealize.ShloMosaic.Lib.ValueLayout

noncomputable section

namespace Cert.KernelIdeal.Body

open Idealize.ShloMosaic Idealize.ShloMosaic.ValueIdx Cert.KernelIdeal Cert.KernelIdeal.Gen

/-- The body's dimension record contracts the input block's axis 1 with the weight matrix's axis 0: at result index
    `i` and contraction position `q` it reads the block at `(i 0, q)` and the matrix at `(q, i 1)`. -/
theorem reads : Cert.Lib.PlainDot.Reads (R := 1024) (K := 1280) (C := 640) dot_S1024x1280_S1280x640_S1024x640_1_0_0_1_n_n where
  rank := rfl
  size := rfl
  lhs0 := fun _ _ => rfl
  lhs1 := fun _ _ => rfl
  rhs0 := fun _ _ => rfl
  rhs1 := fun _ _ => rfl

/-- Entry `(r, cc)` of the stored value: the block's row `r` against the matrix's column `cc`, plus the bias row's
    entry `cc`. -/
theorem pay_apply (xb : Vec Ideal S1024x1280 .f32) (wbig : Vec Ideal S1280x640 .f32) (brow : Vec Ideal S1x640 .f32)
    (r : Fin 1024) (cc : Fin 640) :
    k0_pay1 (F := Ideal) xb wbig brow (ix2 r cc)
      = (∑ q : Fin 1280, xb (ix2 r q) * wbig (ix2 q cc)) + brow (ix2 (0 : Fin 1) cc) := by
  unfold k0_pay1
  rw [addf_apply, shapeCast_self, shapeCast_self, shapeCast_self]
  exact congrArg₂ (· + ·) (Cert.Lib.PlainDot.matmul_zero_apply reads none xb wbig r cc)
    (broadcastTo_1b_ab_apply brow _ r cc)

/-- The same at any index `y` of the block, through its two coordinates. -/
theorem pay_idx (xb : Vec Ideal S1024x1280 .f32) (wbig : Vec Ideal S1280x640 .f32) (brow : Vec Ideal S1x640 .f32)
    (y : S1024x640.Idx) :
    k0_pay1 (F := Ideal) xb wbig brow y
      = (∑ q : Fin 1280, xb (ix2 (y 0 : Fin 1024) q) * wbig (ix2 q (y 1 : Fin 640))) + brow (ix2 (0 : Fin 1) (y 1 : Fin 640)) :=
  (congrArg (k0_pay1 (F := Ideal) xb wbig brow) (eq_ix2 y)).trans (pay_apply xb wbig brow (y 0) (y 1))

/-! ## The block entry as an entry of one function of the whole arrays -/

/-- Row `R` of the whole packed input against column `cc` of the matrix, plus the bias row's entry `cc`. -/
def rowsTimesMatrix (X : S8192x1280.Idx → EReal) (Wb : S1280x640.Idx → EReal) (Bt : S1x640.Idx → EReal) :
    S8192x640.Idx → EReal :=
  fun i => (∑ q : Fin 1280, X (ix2 (i 0 : Fin 8192) q) * Wb (ix2 q (i 1 : Fin 640))) + Bt (ix2 (0 : Fin 1) (i 1 : Fin 640))

/-- If the loaded blocks `xb`, `wb`, `bb` hold, at the positions entry `y` of the body's result reads, what the whole
    arrays `X`, `Wb`, `Bt` hold at the positions entry `i` of that function reads, the two entries are equal. -/
theorem pay_of_blocks (X : S8192x1280.Idx → EReal) (Wb : S1280x640.Idx → EReal) (Bt : S1x640.Idx → EReal)
    (xb : Vec Ideal S1024x1280 .f32) (wb : Vec Ideal S1280x640 .f32) (bb : Vec Ideal S1x640 .f32)
    (y : S1024x640.Idx) (i : S8192x640.Idx)
    (hx : ∀ q : Fin 1280, xb (ix2 (y 0 : Fin 1024) q) = X (ix2 (i 0 : Fin 8192) q))
    (hw : ∀ q : Fin 1280, wb (ix2 q (y 1 : Fin 640)) = Wb (ix2 q (i 1 : Fin 640)))
    (hb : bb (ix2 (0 : Fin 1) (y 1 : Fin 640)) = Bt (ix2 (0 : Fin 1) (i 1 : Fin 640))) :
    k0_pay1 (F := Ideal) xb wb bb y = rowsTimesMatrix X Wb Bt i := by
  rw [pay_idx]
  unfold rowsTimesMatrix
  rw [hb]
  exact congrArg (· + _) (Finset.sum_congr rfl fun q _ => by rw [hx q, hw q])

end Cert.KernelIdeal.Body

end
-- ==== Proof.KerBlocks.lean ====
/-
  The array the kernel's region leaves, as one function of the three arrays it reads.

  The region's grid has 8 points. Point `t` reads rows `1024·t … 1024·t + 1023` of the packed input, the whole
  block-diagonal matrix and the whole tiled bias row, and writes the same rows of the 8192×640 result. Entry `(R, cc)`
  of what it writes depends on row `R` of the packed input only, so every block written is the restriction of ONE
  function of the whole arrays,
      `(R, cc) ↦ Σ_{q < 1280} X(R, q) · Wb(q, cc) + Bt(0, cc)`,
  and since the 8 row blocks cover the result, the result IS that function.
-/
import proofs.«143315_g2000306541791108_pallasbulk_683_3_alg».proof.Proof.Gen.KernelIdeal.Frame
import proofs.«143315_g2000306541791108_pallasbulk_683_3_alg».proof.Proof.KerBody
import Idealize.ShloMosaic.Lib.Pipeline.Value
import Idealize.ShloMosaic.Lib.ValueIdx

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen Cert.KernelIdeal.Body
open Idealize.ShloMosaic.Pipeline (Dat)

variable (m : (ℓ : Loc nD τ sig) → Buf (Elt Ideal) ℓ)

theorem offset_zero : (![0, 0] : Fin 2 → Nat) = fun _ => 0 := funext fun a => by fin_cases a <;> rfl

/-- Where each window's block sits at point `t`: the matrix and the bias row are whole, the packed input and the
    result move down the rows, block `t` at point `t`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of that function of the arrays as the region finds them. -/
theorem flushed_eq (c : Dev nD) (t : Fin cfg0.N) :
    (dats m 0 c).flushed 3 t
      = ((cfg0.win 3).blk t).view.read (Elt Ideal) (rowsTimesMatrix (V m c main_v0) (V m c main_v8) (V m c main_v12)) := by
  show (cfg0.win 3).cut (grid0.coords t) ((dats m 0 c).after 3 t) = _
  rw [after0_3]
  unfold out0_3
  rw [View.canon_unit_zero offset_zero]
  simp only [View.ld_unit_zero (S := S1024x1280) offset_zero, View.ld_unit_zero (S := S1280x640) offset_zero,
    View.ld_unit_zero (S := S1x640) offset_zero]
  obtain ⟨e00, e01, e10, e11, e20, e21, e30, e31⟩ := block_indices t
  funext y
  show k0_pay1 (F := Ideal) (iblk m c 0 t) (iblk m c 1 t) (iblk m c 2 t) y
    = rowsTimesMatrix (V m c main_v0) (V m c main_v8) (V m c main_v12) (((cfg0.win 3).blk t).view.emb y)
  have hy0 : (y 0).val < 1024 := (y 0).isLt
  have hy1 : (y 1).val < 640 := (y 1).isLt
  refine pay_of_blocks (V m c main_v0) (V m c main_v8) (V m c main_v12) (iblk m c 0 t) (iblk m c 1 t) (iblk m c 2 t)
    y (((cfg0.win 3).blk t).view.emb y) (fun q => ?_) (fun q => ?_) ?_
  · show V m c main_v0 (((cfg0.win 0).blk t).view.emb (ix2 (y 0 : Fin 1024) q)) = _
    refine congrArg (V m c main_v0) (funext fun a => Fin.ext ?_)
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 1280 + 1 * q.val = q.val; omega
  · show V m c main_v8 (((cfg0.win 1).blk t).view.emb (ix2 q (y 1 : Fin 640))) = _
    refine congrArg (V m c main_v8) (funext fun a => Fin.ext ?_)
    match a with
    | ⟨0, _⟩ => show win0_1.index t (0 : Fin 2) * 1280 + 1 * q.val = q.val; omega
    | ⟨1, _⟩ => show win0_1.index t (1 : Fin 2) * 640 + 1 * (y 1).val = win0_3.index t (1 : Fin 2) * 640 + 1 * (y 1).val; omega
  · show V m c main_v12 (((cfg0.win 2).blk t).view.emb (ix2 (0 : Fin 1) (y 1 : Fin 640))) = _
    refine congrArg (V m c main_v12) (funext fun a => Fin.ext ?_)
    match a with
    | ⟨0, _⟩ => show win0_2.index t (0 : Fin 2) * 1 + 1 * 0 = 0; omega
    | ⟨1, _⟩ => show win0_2.index t (1 : Fin 2) * 640 + 1 * (y 1).val = win0_3.index t (1 : Fin 2) * 640 + 1 * (y 1).val; omega

/-- An index of the result is in point `t`'s block iff each coordinate is in the block's range on its axis. -/
theorem mem_blk (t : Fin cfg0.N) (i : S8192x640.Idx) :
    i ∈ ((cfg0.win 3).blk t).view.set
      ↔ ∀ a : Fin 2, win0_3.index t a * S1024x640.size a ≤ (i a).val
          ∧ (i a).val < win0_3.index t a * S1024x640.size a + S1024x640.size a := by
  show i ∈ ((View.whole main_v13).slice (win0_3.rect t)).set ↔ _
  rw [View.set_slice_whole, Rect.mem_set_unit]
  exact Iff.rfl

/-- Row `R` of the result is written at point `R / 1024`. -/
theorem cover (i : S8192x640.Idx) :
    ∃ t : Fin cfg0.N, (cfg0.win 3).flush t = true ∧ i ∈ ((cfg0.win 3).blk t).view.set := by
  have hi0 : (i 0).val < 8192 := (i 0).isLt
  have hi1 : (i 1).val < 640 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨e00, e01, e10, e11, e20, e21, e30, e31⟩ := block_indices t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 640 ≤ (i 1).val ∧ (i 1).val < win0_3.index t (1 : Fin 2) * 640 + 640
    omega

/-- The result array after the region: the one function, everywhere. -/
theorem final (c : Dev nD) :
    (dats m 0 c).arrAt 3 cfg0.N = rowsTimesMatrix (V m c main_v0) (V m c main_v8) (V m c main_v12) :=
  (dats m 0 c).arrAt_eq_of_cover 3 _ (fun t _ => flushed_eq m c t) cover

end Cert.KernelIdeal.Blocks

end
-- ==== Proof.LibBiasLayout.lean ====
/-
  A bias laid out as a row, and a scalar spread over an array, read at an index.

  `broadcast_in_dim` of a rank-0 value to any shape reads that one value everywhere; of a `[1, b]` row to `[a, b]` along
  dims (0, 1) it reads, at `(p, c)`, the row at `c`; of a `[b]` vector to a `[1, b]` row along dim 1 it reads, at
  `(u, i)`, the vector at `i` — which is also what the reshape `[b] → [1, b]` reads, so the two layouts of a bias as a
  row are one array.
-/
import Idealize.ShloMosaic.Lib.Pipeline.Value
import Idealize.ShloMosaic.Lib.ValueIdx
import Idealize.ShloMosaic.Lib.ValueLayout

noncomputable section

namespace Cert.Lib.BiasLayout

open Idealize.ShloMosaic Idealize.ShloMosaic.ValueIdx

variable {α : Type}

/-- A rank-0 value broadcast to any shape reads that value at every index. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A `[1, b]` row broadcast to `[a, b]` along dims (0, 1) reads, at `(p, c)`, the row at `c`. -/
theorem bcast_row_apply {a b : ℕ} (dims : Fin 2 → Fin 2) (hd : dims = ![0, 1])
    (h : (⟨2, ![1, b]⟩ : Shape).BroadcastsInDim ⟨2, ![a, b]⟩ dims) (v : (⟨2, ![1, b]⟩ : Shape).Idx → α)
    (p : Fin a) (c : Fin b) : broadcastInDim ⟨2, ![a, b]⟩ dims h v (ix2 p c) = v (ix2 (0 : Fin 1) c) := by
  subst hd
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A `[b]` vector broadcast to a `[1, b]` row along dim 1 reads, at `(u, i)`, the vector at `i`. -/
theorem bcast_vec_row_apply {b : ℕ} (dims : Fin 1 → Fin 2) (hd : dims = ![1])
    (h : (⟨1, ![b]⟩ : Shape).BroadcastsInDim ⟨2, ![1, b]⟩ dims) (x : (⟨1, ![b]⟩ : Shape).Idx → α)
    (u : Fin 1) (i : Fin b) : broadcastInDim ⟨2, ![1, b]⟩ dims h x (ix2 u i) = x (ix1 i) := by
  subst hd
  refine broadcastInDim_apply _ h x (ix2 u i) (ix1 i) fun ax => ?_
  match ax with
  | ⟨0, _⟩ =>
    show i.val = if b = 1 then 0 else i.val
    split
    · have := i.isLt; omega
    · rfl

/-- So the reshape `[b] → [1, b]` and the broadcast `[b] → [1, b]` along dim 1 lay a vector out as the same row. -/
theorem reshape_row_eq_bcast_row {b : ℕ} (dims : Fin 1 → Fin 2) (hd : dims = ![1])
    (hc : (⟨1, ![b]⟩ : Shape).ShapeCasts ⟨2, ![1, b]⟩) (hb : (⟨1, ![b]⟩ : Shape).BroadcastsInDim ⟨2, ![1, b]⟩ dims)
    (x : (⟨1, ![b]⟩ : Shape).Idx → α) :
    shapeCast ⟨2, ![1, b]⟩ x hc = broadcastInDim ⟨2, ![1, b]⟩ dims hb x := by
  funext j
  obtain ⟨u, i, rfl⟩ : ∃ (u : Fin 1) (i : Fin b), j = ix2 u i := ⟨j 0, j 1, eq_ix2 j⟩
  rw [shapeCast_a_1a_apply x hc u i, bcast_vec_row_apply dims hd hb x u i]

end Cert.Lib.BiasLayout

end
-- ==== Proof.KerHost.lean ====
/-
  The three arrays the kernel's host code prepares before the region, read at an index.

  * The input `[1048576, 10]` viewed as `[8192, 1280]`: a reshape keeps the row-major order, so position `q` of row `R`
    is feature `q % 10` of input row `128·R + q / 10`.
  * The block-diagonal weight matrix `[1280, 640]`: the Kronecker product of the 128×128 identity with the transposed
    weight, built as a product of two broadcasts and reshaped from `[128, 10, 128, 5]`. At `(10·a + k, 5·p + j)` it holds
    `δ(a, p) · w(j, k)`, where the identity's entry `δ(a, p)` is the comparison of two iotas converted to a float:
    one where `a = p`, zero elsewhere.
  * The bias tiled 128 times into a `[1, 640]` row: at `(0, cc)` it holds `bias(cc % 5)`.
-/
import proofs.«143315_g2000306541791108_pallasbulk_683_3_alg».proof.Proof.Gen.KernelIdeal.Frame
import proofs.«143315_g2000306541791108_pallasbulk_683_3_alg».proof.Proof.LibBiasLayout
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

set_option maxRecDepth 16384

noncomputable section

namespace Cert.KernelIdeal.Host

open Idealize.ShloMosaic Idealize.ShloMosaic.ValueIdx Idealize.ShloMosaic.TcCoe Idealize.SL.Sem
open Cert.KernelIdeal Cert.KernelIdeal.Gen

/-! ## The arrays as terms of the arguments -/

/-- The input with 128 consecutive rows side by side in each row. -/
def packedInput (x : S1048576x10.Idx → EReal) : S8192x1280.Idx → EReal :=
  shapeCast S8192x1280 x shapeCasts_S1048576x10_S8192x1280

/-- The 128×128 identity, as the host computes it: row iota (plus a zero offset) compared with column iota, the bit
    converted to a float. -/
def identity128 : S128x128.Idx → EReal :=
  uitofp (F := Ideal) .f32
    (cmpi .eq (addi (iotaInDim S128x128 32 0) (broadcastInDim S128x128 ![] bcast_S_S128x128 (constantI S_ 32 0#32)))
      (iotaInDim S128x128 32 1))

/-- The Kronecker product of that identity with the transposed weight, laid out `[1280, 640]`. -/
def blockDiagonal (w : S5x10.Idx → EReal) : S1280x640.Idx → EReal :=
  shapeCast S1280x640
    (mulf (F := Ideal) (φ := .f32)
      (broadcastInDim S128x10x128x5 ![0, 1, 2, 3] bcast_S128x1x128x1_S128x10x128x5_0_1_2_3
        (broadcastInDim S128x1x128x1 ![0, 2] bcast_S128x128_S128x1x128x1_0_2 identity128))
      (broadcastInDim S128x10x128x5 ![0, 1, 2, 3] bcast_S1x10x1x5_S128x10x128x5_0_1_2_3
        (broadcastInDim S1x10x1x5 ![1, 3] bcast_S10x5_S1x10x1x5_1_3
          (transpose S10x5 [1, 0] w transposes_S5x10_S10x5_1_0))))
    shapeCasts_S128x10x128x5_S1280x640

/-- The bias repeated 128 times along one row. -/
def tiledBias (bias : S5.Idx → EReal) : S1x640.Idx → EReal :=
  shapeCast S1x640
    (shapeCast S640
      (broadcastInDim S128x5 ![0, 1] bcast_S1x5_S128x5_0_1 (shapeCast S1x5 bias shapeCasts_S5_S1x5))
      shapeCasts_S128x5_S640)
    shapeCasts_S640_S1x640

/-! ## The region finds exactly these -/

variable (m : (ℓ : Loc nD τ sig) → Buf (Elt Ideal) ℓ)

theorem V_packedInput (c : Dev nD) :
    (V m c main_v0 : S8192x1280.Idx → EReal) = packedInput (m ((c : Thread nD τ).loc main_arg0)) := by
  dsimp only [V, V0]
  simp only [hostOps0, hostOps0_1, hostOps0_2, List.flatten_cons, List.flatten_nil, List.append_nil, List.cons_append,
    List.nil_append]
  after_results
  rfl

theorem V_blockDiagonal (c : Dev nD) :
    (V m c main_v8 : S1280x640.Idx → EReal) = blockDiagonal (m ((c : Thread nD τ).loc main_arg1)) := by
  dsimp only [V, V0]
  simp only [hostOps0, hostOps0_1, hostOps0_2, List.flatten_cons, List.flatten_nil, List.append_nil, List.cons_append,
    List.nil_append]
  after_results
  rfl

theorem V_tiledBias (c : Dev nD) :
    (V m c main_v12 : S1x640.Idx → EReal) = tiledBias (m ((c : Thread nD τ).loc main_arg2)) := by
  dsimp only [V, V0]
  simp only [hostOps0, hostOps0_1, hostOps0_2, List.flatten_cons, List.flatten_nil, List.append_nil, List.cons_append,
    List.nil_append]
  after_results
  rfl

/-! ## Each read at an index -/

/-- Position `q` of row `R` of the packed input is feature `q % 10` of input row `128·R + q / 10`. -/
theorem packedInput_apply (x : S1048576x10.Idx → EReal) (R : Fin 8192) (q : Fin 1280) (b : Fin 1048576) (k : Fin 10)
    (hb : b.val = 128 * R.val + q.val / 10) (hk : k.val = q.val % 10) :
    packedInput x (ix2 R q) = x (ix2 b k) :=
  shapeCast_apply x _ (ix2 R q) (ix2 b k) (by
    rw [Shape.rowMajor_val_two, Shape.rowMajor_val_two]
    show b.val * 10 + k.val = R.val * 1280 + q.val
    omega)

/-- Comparing two words below 128: the bit is one exactly where they are the same number. -/
theorem eq_bit (a p : Fin 128) :
    IntOp.cmpi .eq (BitVec.ofNat 32 a.val + 0#32) (BitVec.ofNat 32 p.val) = if a = p then 1#1 else 0#1 := by
  rw [BitVec.add_zero]
  unfold IntOp.cmpi
  by_cases h : a = p
  · subst h; simp
  · rw [if_neg h]
    have hne : BitVec.ofNat 32 a.val ≠ BitVec.ofNat 32 p.val := fun e => h (Fin.ext (by
      have e' := congrArg BitVec.toNat e
      simp only [BitVec.toNat_ofNat] at e'
      have ha := a.isLt; have hp := p.isLt
      omega))
    rw [beq_eq_false_iff_ne.mpr hne]
    rfl

/-- The identity's entry: one on the diagonal, zero off it. -/
theorem identity128_apply (a p : Fin 128) : identity128 (ix2 a p) = if a.val = p.val then (1 : EReal) else 0 := by
  show (((IntOp.cmpi .eq (BitVec.ofNat 32 a.val + 0#32) (BitVec.ofNat 32 p.val)).toNat : ℝ) : EReal) = _
  rw [eq_bit]
  by_cases h : a = p
  · rw [if_pos h, if_pos (congrArg Fin.val h)]; simp
  · rw [if_neg h, if_neg (fun e => h (Fin.ext e))]; simp

/-- Entry `(10·a + k, 5·p + j)` of the block-diagonal matrix is `δ(a, p) · w(j, k)`. -/
theorem blockDiagonal_apply (w : S5x10.Idx → EReal) (q : Fin 1280) (cc : Fin 640)
    (a : Fin 128) (k : Fin 10) (p : Fin 128) (j : Fin 5)
    (hq : q.val = 10 * a.val + k.val) (hc : cc.val = 5 * p.val + j.val) :
    blockDiagonal w (ix2 q cc) = (if a.val = p.val then (1 : EReal) else 0) * w (ix2 j k) := by
  unfold blockDiagonal
  refine (shapeCast_apply _ _ (ix2 q cc) (ix4 a k p j) (by
    rw [Shape.rowMajor_val_four, Shape.rowMajor_val_two]
    show ((a.val * 10 + k.val) * 128 + p.val) * 5 + j.val = q.val * 640 + cc.val
    have := j.isLt; have := p.isLt; have := k.isLt
    omega)).trans ?_
  rw [mulf_apply]
  refine congrArg₂ (· * ·) ?_ ?_
  · refine (broadcastInDim_apply _ _ _ (ix4 a k p j) (ix4 a (0 : Fin 1) p (0 : Fin 1)) fun ax => ?_).trans ?_
    · match ax with
      | ⟨0, _⟩ => rfl
      | ⟨1, _⟩ => rfl
      | ⟨2, _⟩ => rfl
      | ⟨3, _⟩ => rfl
    · refine (broadcastInDim_apply _ _ _ (ix4 a (0 : Fin 1) p (0 : Fin 1)) (ix2 a p) fun ax => ?_).trans
        (identity128_apply a p)
      match ax with
      | ⟨0, _⟩ => rfl
      | ⟨1, _⟩ => rfl
  · refine (broadcastInDim_apply _ _ _ (ix4 a k p j) (ix4 (0 : Fin 1) k (0 : Fin 1) j) fun ax => ?_).trans ?_
    · match ax with
      | ⟨0, _⟩ => rfl
      | ⟨1, _⟩ => rfl
      | ⟨2, _⟩ => rfl
      | ⟨3, _⟩ => rfl
    · refine (broadcastInDim_apply _ _ _ (ix4 (0 : Fin 1) k (0 : Fin 1) j) (ix2 k j) fun ax => ?_).trans
        (transpose_ix2_apply w _ k j)
      match ax with
      | ⟨0, _⟩ => rfl
      | ⟨1, _⟩ => rfl

/-- Entry `cc` of the tiled bias row is `bias(cc % 5)`. -/
theorem tiledBias_apply (bias : S5.Idx → EReal) (cc : Fin 640) (j : Fin 5) (hj : j.val = cc.val % 5) :
    tiledBias bias (ix2 (0 : Fin 1) cc) = bias (ix1 j) := by
  unfold tiledBias
  refine (shapeCast_a_1a_apply _ _ (0 : Fin 1) cc).trans ?_
  have hp : cc.val / 5 < 128 := by have := cc.isLt; omega
  refine (shapeCast_apply _ _ (ix1 cc) (ix2 (⟨cc.val / 5, hp⟩ : Fin 128) j) (by
    rw [Shape.rowMajor_val_two, Shape.rowMajor_val_one]
    show cc.val / 5 * 5 + j.val = cc.val
    omega)).trans ?_
  refine (Cert.Lib.BiasLayout.bcast_row_apply _ rfl _ _ (⟨cc.val / 5, hp⟩ : Fin 128) j).trans ?_
  exact shapeCast_a_1a_apply bias _ (0 : Fin 1) j

end Cert.KernelIdeal.Host

end
-- ==== Proof.LibOneBlockSum.lean ====
/-
  A sum over `Fin (m * n)`, read as `m` consecutive blocks of `n`, whose terms vanish outside ONE block is the sum
  over that block.

  Position `q` lies in block `q / n`; the positions of block `p` are `k + n * p` for `k < n`
  (`finProdFinEquiv (p, k)`). Only that the values add commutatively is used: no subtraction, no cancelling and no
  distributivity, so the statement holds as it stands on the extended reals, at infinite entries too. It is what
  is left of a product with a block-diagonal matrix: every term off the diagonal block carries a factor zero.
-/
import Mathlib.Algebra.BigOperators.Fin
import Mathlib.Logic.Equiv.Fin.Basic

namespace Cert.Lib.OneBlockSum

open scoped BigOperators

/-- Position `k` of block `a` lies in block `a`. -/
theorem block_of_pos {m n : ℕ} (a : Fin m) (k : Fin n) : (finProdFinEquiv (a, k)).val / n = a.val := by
  show (k.val + n * a.val) / n = a.val
  have hn : 0 < n := Nat.pos_of_ne_zero (by rintro rfl; exact k.elim0)
  rw [Nat.add_mul_div_left _ _ hn, Nat.div_eq_of_lt k.isLt, Nat.zero_add]

/-- Position `k` of block `a` is the `k`-th of its block. -/
theorem pos_of_pos {m n : ℕ} (a : Fin m) (k : Fin n) : (finProdFinEquiv (a, k)).val % n = k.val := by
  show (k.val + n * a.val) % n = k.val
  rw [Nat.add_mul_mod_self_left, Nat.mod_eq_of_lt k.isLt]

/-- If `f` vanishes at every position outside block `p`, its sum over all `m * n` positions is its sum over the
    `n` positions of block `p`. -/
theorem sum_eq_block {M : Type*} [AddCommMonoid M] {m n : ℕ} (p : Fin m) (f : Fin (m * n) → M)
    (h0 : ∀ q : Fin (m * n), q.val / n ≠ p.val → f q = 0) :
    ∑ q, f q = ∑ k : Fin n, f (finProdFinEquiv (p, k)) := by
  rw [← Equiv.sum_comp finProdFinEquiv f, Fintype.sum_prod_type]
  refine Finset.sum_eq_single p (fun a _ hap => ?_) (fun h => absurd (Finset.mem_univ p) h)
  refine Finset.sum_eq_zero fun k _ => h0 _ ?_
  rw [block_of_pos]
  exact fun h => hap (Fin.ext h)

end Cert.Lib.OneBlockSum
-- ==== Proof.Linear.lean ====
/-
  The function both programs compute: a linear layer with bias over the extended reals.

  For an input `x` of 1048576 rows of 10 features, a weight `w` of 5 rows of 10 and a bias of 5 entries, entry
  `(b, j)` of the result is `Σ_{k < 10} w(j, k) · x(b, k) + bias(j)`.

  The kernel reaches it through a product with a block-diagonal matrix: row `b` lies in a packed row of 128 input rows,
  at slot `b % 128`, and is multiplied by a 1280×640 matrix whose entry at `(10·a + k, 5·p + j)` is `δ(a, p) · w(j, k)`.
  Every term of that 1280-term sum outside slot `b % 128` carries the factor `δ = 0` and vanishes; inside the slot
  `δ = 1`. On the extended reals `0 · v = 0` and `u · 0 = 0` for every `u`, `v`, the infinite ones included, so the
  collapse needs no finiteness of the entries, and what is left differs from the reference's sum only in the order of
  each product's two factors.
-/
import proofs.«143315_g2000306541791108_pallasbulk_683_3_alg».proof.Proof.LibOneBlockSum
import Idealize.ShloMosaic.PureOps.Ideal
import Idealize.ShloMosaic.Lib.ValueIdx

noncomputable section

namespace Cert.Linear

open Idealize.ShloMosaic Idealize.ShloMosaic.ValueIdx

/-- The linear layer, entry by entry. -/
def linear (x : (⟨2, ![1048576, 10]⟩ : Shape).Idx → EReal) (w : (⟨2, ![5, 10]⟩ : Shape).Idx → EReal)
    (bias : (⟨1, ![5]⟩ : Shape).Idx → EReal) : (⟨2, ![1048576, 5]⟩ : Shape).Idx → EReal :=
  fun i => (∑ k : Fin 10, w (ix2 (i 1 : Fin 5) k) * x (ix2 (i 0 : Fin 1048576) k)) + bias (ix1 (i 1 : Fin 5))

/-- The 1280-term sum against the block-diagonal matrix collapses to the ten terms of row `b`'s own slot.
    `f q` is the term at position `q`: the packed row's entry there — feature `q % 10` of input row
    `128·(b / 128) + q / 10` — times `δ(q / 10, b % 128) · w(j, q % 10)`. -/
theorem block_diagonal_sum (x : (⟨2, ![1048576, 10]⟩ : Shape).Idx → EReal) (w : (⟨2, ![5, 10]⟩ : Shape).Idx → EReal)
    (b : Fin 1048576) (j : Fin 5) (f : Fin 1280 → EReal)
    (hf : ∀ (q : Fin 1280) (b' : Fin 1048576) (k : Fin 10), b'.val = 128 * (b.val / 128) + q.val / 10 →
      k.val = q.val % 10 →
      f q = x (ix2 b' k) * ((if q.val / 10 = b.val % 128 then (1 : EReal) else 0) * w (ix2 j k))) :
    ∑ q, f q = ∑ k : Fin 10, w (ix2 j k) * x (ix2 b k) := by
  have hb := b.isLt
  have hp : b.val % 128 < 128 := Nat.mod_lt _ (by norm_num)
  rw [Cert.Lib.OneBlockSum.sum_eq_block (m := 128) (n := 10) (⟨b.val % 128, hp⟩ : Fin 128) f (fun q hq => by
    have hq' := q.isLt
    have hb' : 128 * (b.val / 128) + q.val / 10 < 1048576 := by omega
    have hk' : q.val % 10 < 10 := Nat.mod_lt _ (by norm_num)
    rw [hf q ⟨_, hb'⟩ ⟨_, hk'⟩ rfl rfl, if_neg hq, zero_mul, mul_zero])]
  refine Finset.sum_congr rfl fun k _ => ?_
  have h1 := Cert.Lib.OneBlockSum.block_of_pos (m := 128) (n := 10) (⟨b.val % 128, hp⟩ : Fin 128) k
  have h2 := Cert.Lib.OneBlockSum.pos_of_pos (m := 128) (n := 10) (⟨b.val % 128, hp⟩ : Fin 128) k
  rw [hf _ b k (by rw [h1]; show b.val = 128 * (b.val / 128) + b.val % 128; omega) (by rw [h2]),
    if_pos h1, one_mul, mul_comm]

end Cert.Linear

end
-- ==== Proof.KerRun.lean ====
/-
  The kernel's whole run, read back.

  After the region the host reshapes the 8192×640 result to 1048576×5: entry `(b, j)` of the final array is entry
  `(b / 128, 5·(b % 128) + j)` of the region's result, that is
      `Σ_{q < 1280} X(b / 128, q) · Wb(q, 5·(b % 128) + j) + Bt(0, 5·(b % 128) + j)`
  with `X` the packed input, `Wb` the block-diagonal matrix and `Bt` the tiled bias. Reading the three at their
  indices, the term at `q` is `x(128·(b / 128) + q / 10, q % 10) · (δ(q / 10, b % 128) · w(j, q % 10))` and the bias entry
  is `bias(j)`; the sum collapses to slot `b % 128`, where the input row is `b` itself. So the kernel too ends with the
  linear layer of its arguments, and its arguments unchanged.
-/
import proofs.«143315_g2000306541791108_pallasbulk_683_3_alg».proof.Proof.KerBlocks
import proofs.«143315_g2000306541791108_pallasbulk_683_3_alg».proof.Proof.KerHost
import proofs.«143315_g2000306541791108_pallasbulk_683_3_alg».proof.Proof.Linear

set_option maxRecDepth 16384

noncomputable section

namespace Cert.KernelIdeal.Run

open Idealize.ShloMosaic Idealize.ShloMosaic.ValueIdx Idealize.ShloMosaic.TcCoe Idealize.SL.Sem
open Cert.KernelIdeal Cert.KernelIdeal.Gen Cert.KernelIdeal.Body Cert.KernelIdeal.Blocks Cert.KernelIdeal.Host

variable (m : (ℓ : Loc nD τ sig) → Buf (Elt Ideal) ℓ) (ρ : Dev nD → PrngReg)

/-- The reshaped region result, entry by entry, is the linear layer of the arguments. -/
theorem reshaped_result (x : S1048576x10.Idx → EReal) (w : S5x10.Idx → EReal) (bias : S5.Idx → EReal) :
    shapeCast S1048576x5 (rowsTimesMatrix (packedInput x) (blockDiagonal w) (tiledBias bias))
        shapeCasts_S8192x640_S1048576x5
      = Cert.Linear.linear x w bias := by
  funext i
  obtain ⟨b, j, rfl⟩ : ∃ (b : Fin 1048576) (j : Fin 5), i = ix2 b j := ⟨i 0, i 1, eq_ix2 i⟩
  have hb := b.isLt
  have hj := j.isLt
  have hR : b.val / 128 < 8192 := by omega
  have hcc : 5 * (b.val % 128) + j.val < 640 := by omega
  have hp : b.val % 128 < 128 := by omega
  refine (shapeCast_apply _ _ (ix2 b j)
    (ix2 (⟨b.val / 128, hR⟩ : Fin 8192) (⟨5 * (b.val % 128) + j.val, hcc⟩ : Fin 640)) (by
      rw [Shape.rowMajor_val_two, Shape.rowMajor_val_two]
      show b.val / 128 * 640 + (5 * (b.val % 128) + j.val) = b.val * 5 + j.val
      omega)).trans ?_
  show (∑ q : Fin 1280, packedInput x (ix2 (⟨b.val / 128, hR⟩ : Fin 8192) q)
          * blockDiagonal w (ix2 q (⟨5 * (b.val % 128) + j.val, hcc⟩ : Fin 640)))
        + tiledBias bias (ix2 (0 : Fin 1) (⟨5 * (b.val % 128) + j.val, hcc⟩ : Fin 640))
      = (∑ k : Fin 10, w (ix2 j k) * x (ix2 b k)) + bias (ix1 j)
  rw [tiledBias_apply bias _ j (by show j.val = (5 * (b.val % 128) + j.val) % 5; omega)]
  refine congrArg (· + _) ?_
  refine Cert.Linear.block_diagonal_sum x w b j _ (fun q b' k hb' hk => ?_)
  have hq := q.isLt
  have ha : q.val / 10 < 128 := by omega
  rw [packedInput_apply x _ q b' k hb' hk,
    blockDiagonal_apply w q _ (⟨q.val / 10, ha⟩ : Fin 128) k (⟨b.val % 128, hp⟩ : Fin 128) j
      (by show q.val = 10 * (q.val / 10) + k.val; omega) rfl]

/-- What the host's last line leaves in the result buffer. -/
theorem tail_result (c : Dev nD) :
    Pipeline.afterTail₀ cfgs (dats m) 0 (V0 m) [hostOps1] c main_v14
      = Cert.Linear.linear (m ((c : Thread nD τ).loc main_arg0)) (m ((c : Thread nD τ).loc main_arg1))
          (m ((c : Thread nD τ).loc main_arg2)) := by
  unfold Pipeline.afterTail₀
  show StableHlo.after hostOps1 _ (Proc.devRef .tc main_v14) = _
  after_results
  rw [show Pipeline.withArrays spec0 c (V0 m c) (fun w => (dats m 0 c).arrAt w cfg0.N) (Proc.devRef .tc main_v13)
      = rowsTimesMatrix (V m c main_v0) (V m c main_v8) (V m c main_v12) from
    (Pipeline.withArrays_arr spec0 launch0.win.arr_inj c _ _ 3).trans (final m c)]
  rw [V_packedInput, V_blockDiagonal, V_tiledBias]
  exact reshaped_result _ _ _

/-- The run: the result buffer ends at the linear layer of the arguments, and the arguments end as they began. -/
theorem run : θ_run defs (onTc (τ := τ) (main (F := Ideal))) ⟨m, fun _ => 0, ρ⟩ fun r => ∀ c : Dev nD,
      r.2.mem ((c.tc : Thread nD τ).loc main_v14)
        = Cert.Linear.linear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Run

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.RefBody.lean ====
/-
  One entry of the reference kernel's output block.

  The reference's body multiplies the whole 5×10 weight by a 10×32768 block of the transposed input and adds the
  bias, held as a 5×1 column and spread along the block's columns. Read over the extended reals, entry `(j, b)`
  of what it stores is `Σ_{k < 10} w(j, k) · xT(k, b) + bias(j, 0)`: the product is taken into a zero
  accumulator, so nothing but the plain sum is left of it, and the two shape casts are casts of a shape to itself.
-/
import proofs.«143315_g2000306541791108_pallasbulk_683_3_alg».proof.Proof.Gen.ReferenceIdeal.Skeleton
import proofs.«143315_g2000306541791108_pallasbulk_683_3_alg».proof.Proof.LibPlainDot
import proofs.«143315_g2000306541791108_pallasbulk_683_3_alg».proof.Proof.LibColumnLayout
import Idealize.ShloMosaic.Lib.Pipeline.Value
import Idealize.ShloMosaic.Lib.ValueIdx

noncomputable section

namespace Cert.ReferenceIdeal.Body

open Idealize.ShloMosaic Idealize.ShloMosaic.ValueIdx Cert.ReferenceIdeal Cert.ReferenceIdeal.Gen

/-- The body's dimension record contracts the weight's axis 1 with the block's axis 0: at result index `i` and
    contraction position `q` it reads the weight at `(i 0, q)` and the block at `(q, i 1)`. -/
theorem reads : Cert.Lib.PlainDot.Reads (R := 5) (K := 10) (C := 32768) dot_S5x10_S10x32768_S5x32768_1_0_0_1_n_n where
  rank := rfl
  size := rfl
  lhs0 := fun _ _ => rfl
  lhs1 := fun _ _ => rfl
  rhs0 := fun _ _ => rfl
  rhs1 := fun _ _ => rfl

/-- Entry `(j, b)` of the stored value: the weight's row `j` against the block's column `b`, plus the bias
    column's entry `j`. -/
theorem pay_apply (w : Vec Ideal S5x10 .f32) (xT : Vec Ideal S10x32768 .f32) (bcol : Vec Ideal S5x1 .f32)
    (j : Fin 5) (b : Fin 32768) :
    k0_pay1 (F := Ideal) w xT bcol (ix2 j b)
      = (∑ k : Fin 10, w (ix2 j k) * xT (ix2 k b)) + bcol (ix2 j (0 : Fin 1)) := by
  unfold k0_pay1
  rw [addf_apply, shapeCast_self, shapeCast_self]
  exact congrArg₂ (· + ·) (Cert.Lib.PlainDot.matmul_zero_apply reads none w xT j b)
    (Cert.ColumnLayout.broadcastTo_a1_ab_apply bcol _ j b)

/-- The same at any index `y` of the block, through its two coordinates. -/
theorem pay_idx (w : Vec Ideal S5x10 .f32) (xT : Vec Ideal S10x32768 .f32) (bcol : Vec Ideal S5x1 .f32)
    (y : S5x32768.Idx) :
    k0_pay1 (F := Ideal) w xT bcol y
      = (∑ k : Fin 10, w (ix2 (y 0 : Fin 5) k) * xT (ix2 k (y 1 : Fin 32768))) + bcol (ix2 (y 0 : Fin 5) (0 : Fin 1)) :=
  (congrArg (k0_pay1 (F := Ideal) w xT bcol) (eq_ix2 y)).trans (pay_apply w xT bcol (y 0) (y 1))

/-! ## The block entry as an entry of one function of the whole arrays -/

/-- The weight's row `j` against column `b` of the whole transposed input, plus the bias column's entry `j`. -/
def rowsTimesColumns (w : S5x10.Idx → EReal) (bcol : S5x1.Idx → EReal) (xT : S10x1048576.Idx → EReal) :
    S5x1048576.Idx → EReal :=
  fun i => (∑ k : Fin 10, w (ix2 (i 0 : Fin 5) k) * xT (ix2 k (i 1 : Fin 1048576))) + bcol (ix2 (i 0 : Fin 5) (0 : Fin 1))

/-- If the loaded blocks `wb`, `xb`, `bb` hold, at the positions entry `y` of the body's result reads, what the whole
    arrays `W`, `XT`, `B` hold at the positions entry `i` of that function reads, the two entries are equal. -/
theorem pay_of_blocks (W : S5x10.Idx → EReal) (B : S5x1.Idx → EReal) (XT : S10x1048576.Idx → EReal)
    (wb : Vec Ideal S5x10 .f32) (bb : Vec Ideal S5x1 .f32) (xb : Vec Ideal S10x32768 .f32)
    (y : S5x32768.Idx) (i : S5x1048576.Idx)
    (hw : ∀ k : Fin 10, wb (ix2 (y 0 : Fin 5) k) = W (ix2 (i 0 : Fin 5) k))
    (hx : ∀ k : Fin 10, xb (ix2 k (y 1 : Fin 32768)) = XT (ix2 k (i 1 : Fin 1048576)))
    (hb : bb (ix2 (y 0 : Fin 5) (0 : Fin 1)) = B (ix2 (i 0 : Fin 5) (0 : Fin 1))) :
    k0_pay1 (F := Ideal) wb xb bb y = rowsTimesColumns W B XT i := by
  rw [pay_idx]
  unfold rowsTimesColumns
  rw [hb]
  exact congrArg (· + _) (Finset.sum_congr rfl fun k _ => by rw [hw k, hx k])

end Cert.ReferenceIdeal.Body

end
-- ==== Proof.RefBlocks.lean ====
/-
  The array the reference's region leaves, as one function of the three arrays it reads.

  The region's grid has 32 points. Point `t` reads the whole weight, the whole bias column and columns
  `32768·t … 32768·t + 32767` of the transposed input, and writes the same columns of the 5×1048576 result. Entry
  `(j, b)` of what it writes depends on column `b` of the transposed input only, so every block written is the
  restriction of ONE function of the whole arrays,
      `(j, b) ↦ Σ_{k < 10} w(j, k) · xT(k, b) + bcol(j, 0)`,
  and since the 32 column blocks cover the result, the result IS that function.

  The two arrays the host prepares before the region are read here too: the transposed input and the bias stood up
  as a column.
-/
import proofs.«143315_g2000306541791108_pallasbulk_683_3_alg».proof.Proof.Gen.ReferenceIdeal.Frame
import proofs.«143315_g2000306541791108_pallasbulk_683_3_alg».proof.Proof.RefBody
import Idealize.ShloMosaic.Lib.Pipeline.Value
import Idealize.ShloMosaic.Lib.ValueIdx
import Idealize.ShloMosaic.Lib.StableHlo.Run

set_option maxRecDepth 16384

noncomputable section

namespace Cert.ReferenceIdeal.Blocks

open Idealize.ShloMosaic Idealize.ShloMosaic.ValueIdx Idealize.ShloMosaic.TcCoe Idealize.SL.Sem
open Cert.ReferenceIdeal Cert.ReferenceIdeal.Gen Cert.ReferenceIdeal.Body
open Idealize.ShloMosaic.Pipeline (Dat)

variable (m : (ℓ : Loc nD τ sig) → Buf (Elt Ideal) ℓ)

/-! ## The arrays the host prepares -/

/-- The region finds the input transposed: features down, batch across. -/
theorem V_xT (c : Dev nD) :
    (V m c main_v0 : S10x1048576.Idx → EReal)
      = transpose S10x1048576 [1, 0] (m ((c : Thread nD τ).loc main_arg0)) transposes_S1048576x10_S10x1048576_1_0 := by
  show StableHlo.after hostOps0 (fun b => m (c, b)) (Proc.devRef .tc main_v0) = _
  after_results

/-- The region finds the bias stood up as a 5×1 column. -/
theorem V_bcol (c : Dev nD) :
    (V m c main_v1 : S5x1.Idx → EReal) = shapeCast S5x1 (m ((c : Thread nD τ).loc main_arg2)) shapeCasts_S5_S5x1 := by
  show StableHlo.after hostOps0 (fun b => m (c, b)) (Proc.devRef .tc main_v1) = _
  after_results
  rfl

/-! ## One function of the whole arrays -/

theorem offset_zero : (![0, 0] : Fin 2 → Nat) = fun _ => 0 := funext fun a => by fin_cases a <;> rfl

/-- Where each window's block sits at point `t`: the weight and the bias column are whole, the transposed input and
    the result move along the batch axis, block `t` at point `t`. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What point `t` writes back is block `t` of that function of the arrays as the region finds them. -/
theorem flushed_eq (c : Dev nD) (t : Fin cfg0.N) :
    (dats m 0 c).flushed 3 t
      = ((cfg0.win 3).blk t).view.read (Elt Ideal) (rowsTimesColumns (V m c main_arg1) (V m c main_v1) (V m c main_v0)) := by
  show (cfg0.win 3).cut (grid0.coords t) ((dats m 0 c).after 3 t) = _
  rw [after0_3]
  unfold out0_3
  rw [View.canon_unit_zero offset_zero]
  simp only [View.ld_unit_zero (S := S5x10) offset_zero, View.ld_unit_zero (S := S5x1) offset_zero,
    View.ld_unit_zero (S := S10x32768) offset_zero]
  obtain ⟨e00, e01, e10, e11, e20, e21, e30, e31⟩ := block_indices t
  funext y
  show k0_pay1 (F := Ideal) (iblk m c 0 t) (iblk m c 2 t) (iblk m c 1 t) y
    = rowsTimesColumns (V m c main_arg1) (V m c main_v1) (V m c main_v0) (((cfg0.win 3).blk t).view.emb y)
  have hy0 : (y 0).val < 5 := (y 0).isLt
  have hy1 : (y 1).val < 32768 := (y 1).isLt
  refine pay_of_blocks (V m c main_arg1) (V m c main_v1) (V m c main_v0) (iblk m c 0 t) (iblk m c 1 t) (iblk m c 2 t)
    y (((cfg0.win 3).blk t).view.emb y) (fun k => ?_) (fun k => ?_) ?_
  · show V m c main_arg1 (((cfg0.win 0).blk t).view.emb (ix2 (y 0 : Fin 5) k)) = _
    refine congrArg (V m c main_arg1) (funext fun a => Fin.ext ?_)
    match a with
    | ⟨0, _⟩ => show win0_0.index t (0 : Fin 2) * 5 + 1 * (y 0).val = win0_3.index t (0 : Fin 2) * 5 + 1 * (y 0).val; omega
    | ⟨1, _⟩ => show win0_0.index t (1 : Fin 2) * 10 + 1 * k.val = k.val; omega
  · show V m c main_v0 (((cfg0.win 2).blk t).view.emb (ix2 k (y 1 : Fin 32768))) = _
    refine congrArg (V m c main_v0) (funext fun a => Fin.ext ?_)
    match a with
    | ⟨0, _⟩ => show win0_2.index t (0 : Fin 2) * 10 + 1 * k.val = k.val; omega
    | ⟨1, _⟩ => show win0_2.index t (1 : Fin 2) * 32768 + 1 * (y 1).val = win0_3.index t (1 : Fin 2) * 32768 + 1 * (y 1).val; omega
  · show V m c main_v1 (((cfg0.win 1).blk t).view.emb (ix2 (y 0 : Fin 5) (0 : Fin 1))) = _
    refine congrArg (V m c main_v1) (funext fun a => Fin.ext ?_)
    match a with
    | ⟨0, _⟩ => show win0_1.index t (0 : Fin 2) * 5 + 1 * (y 0).val = win0_3.index t (0 : Fin 2) * 5 + 1 * (y 0).val; omega
    | ⟨1, _⟩ => show win0_1.index t (1 : Fin 2) * 1 + 1 * 0 = 0; omega

/-- An index of the result is in point `t`'s block iff each coordinate is in the block's range on its axis. -/
theorem mem_blk (t : Fin cfg0.N) (i : S5x1048576.Idx) :
    i ∈ ((cfg0.win 3).blk t).view.set
      ↔ ∀ a : Fin 2, win0_3.index t a * S5x32768.size a ≤ (i a).val
          ∧ (i a).val < win0_3.index t a * S5x32768.size a + S5x32768.size a := by
  show i ∈ ((View.whole main_v2).slice (win0_3.rect t)).set ↔ _
  rw [View.set_slice_whole, Rect.mem_set_unit]
  exact Iff.rfl

/-- Column `b` of the result is written at point `b / 32768`. -/
theorem cover (i : S5x1048576.Idx) :
    ∃ t : Fin cfg0.N, (cfg0.win 3).flush t = true ∧ i ∈ ((cfg0.win 3).blk t).view.set := by
  have hi0 : (i 0).val < 5 := (i 0).isLt
  have hi1 : (i 1).val < 1048576 := (i 1).isLt
  have hN : cfg0.N = 32 := N_0
  obtain ⟨t, ht⟩ : ∃ t : Fin cfg0.N, t.val = (i 1).val / 32768 := ⟨⟨(i 1).val / 32768, by rw [hN]; omega⟩, rfl⟩
  obtain ⟨e00, e01, e10, e11, e20, e21, e30, e31⟩ := block_indices t
  refine ⟨t, flush0_3 t, ?_⟩
  rw [mem_blk]
  intro a
  match a with
  | ⟨0, _⟩ =>
    show win0_3.index t (0 : Fin 2) * 5 ≤ (i 0).val ∧ (i 0).val < win0_3.index t (0 : Fin 2) * 5 + 5
    omega
  | ⟨1, _⟩ =>
    show win0_3.index t (1 : Fin 2) * 32768 ≤ (i 1).val ∧ (i 1).val < win0_3.index t (1 : Fin 2) * 32768 + 32768
    omega

/-- The result array after the region: the one function, everywhere. -/
theorem final (c : Dev nD) :
    (dats m 0 c).arrAt 3 cfg0.N = rowsTimesColumns (V m c main_arg1) (V m c main_v1) (V m c main_v0) :=
  (dats m 0 c).arrAt_eq_of_cover 3 _ (fun t _ => flushed_eq m c t) cover

end Cert.ReferenceIdeal.Blocks

end
-- ==== Proof.RefRun.lean ====
/-
  The reference's whole run, read back.

  After the region the host transposes the 5×1048576 result to 1048576×5. So the reference ends with, at `(b, j)`,
      `Σ_{k < 10} w(j, k) · x(b, k) + bias(j)`
  — row `j` of the weight against row `b` of the input (column `b` of its transpose), plus entry `j` of the bias (the
  bias column's entry `(j, 0)`) — and its arguments unchanged: the input and the bias are touched by no line after
  the first two, and the weight, which the region stages directly, is an input window's array and is only read.
-/
import proofs.«143315_g2000306541791108_pallasbulk_683_3_alg».proof.Proof.RefBlocks
import proofs.«143315_g2000306541791108_pallasbulk_683_3_alg».proof.Proof.Linear
import proofs.«143315_g2000306541791108_pallasbulk_683_3_alg».proof.Proof.LibColumnLayout
import Idealize.ShloMosaic.Lib.ValueLayout

set_option maxRecDepth 16384

noncomputable section

namespace Cert.ReferenceIdeal.Run

open Idealize.ShloMosaic Idealize.ShloMosaic.ValueIdx Idealize.ShloMosaic.TcCoe Idealize.SL.Sem
open Cert.ReferenceIdeal Cert.ReferenceIdeal.Gen Cert.ReferenceIdeal.Body Cert.ReferenceIdeal.Blocks

variable (m : (ℓ : Loc nD τ sig) → Buf (Elt Ideal) ℓ) (ρ : Dev nD → PrngReg)

/-- The transposed region result, entry by entry, is the linear layer of the arguments. -/
theorem transposed_result (x : S1048576x10.Idx → EReal) (w : S5x10.Idx → EReal) (bias : S5.Idx → EReal) :
    transpose S1048576x5 [1, 0]
        (rowsTimesColumns w (shapeCast S5x1 bias shapeCasts_S5_S5x1)
          (transpose S10x1048576 [1, 0] x transposes_S1048576x10_S10x1048576_1_0))
        transposes_S5x1048576_S1048576x5_1_0
      = Cert.Linear.linear x w bias := by
  funext i
  obtain ⟨b, j, rfl⟩ : ∃ (b : Fin 1048576) (j : Fin 5), i = ix2 b j := ⟨i 0, i 1, eq_ix2 i⟩
  refine (transpose_ix2_apply _ _ b j).trans ?_
  show (∑ k : Fin 10, w (ix2 j k) * transpose S10x1048576 [1, 0] x transposes_S1048576x10_S10x1048576_1_0 (ix2 k b))
      + shapeCast S5x1 bias shapeCasts_S5_S5x1 (ix2 j (0 : Fin 1)) = _
  rw [Cert.ColumnLayout.shapeCast_a_a1_apply bias _ j (0 : Fin 1)]
  exact congrArg (· + _) (Finset.sum_congr rfl fun k _ => by rw [transpose_ix2_apply x _ k b])

/-- What the host's last line leaves in the result buffer. -/
theorem tail_result (c : Dev nD) :
    Pipeline.afterTail₀ cfgs (dats m) 0 (V0 m) [hostOps1] c main_v3
      = Cert.Linear.linear (m ((c : Thread nD τ).loc main_arg0)) (m ((c : Thread nD τ).loc main_arg1))
          (m ((c : Thread nD τ).loc main_arg2)) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2)
      = rowsTimesColumns (V m c main_arg1) (V m c main_v1) (V m c main_v0) from
    (Pipeline.withArrays_arr spec0 launch0.win.arr_inj c _ _ 3).trans (final m c)]
  rw [V_main_arg1, V_bcol, V_xT]
  exact transposed_result _ _ _

/-- The run: the result buffer ends at the linear layer of the arguments, and the arguments end as they began. -/
theorem run : θ_run defs (onTc (τ := τ) (main (F := Ideal))) ⟨m, fun _ => 0, ρ⟩ fun r => ∀ c : Dev nD,
      r.2.mem ((c.tc : Thread nD τ).loc main_v3)
        = Cert.Linear.linear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_result m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m (dats m) c)⟩)
    (run_main m ρ)

end Cert.ReferenceIdeal.Run

end
-- ==== Proof.lean ====
/-
  A linear layer with bias, `y = x · wᵀ + bias` over 1048576 rows of 10 features and 5 outputs, computed two ways.

  The reference transposes the input, multiplies the 5×10 weight by 10×32768 column blocks of it, adds the bias as a
  column, and transposes the result back. The kernel views the input with 128 rows side by side in each row of an
  8192×1280 array, multiplies 1024-row blocks of that by the 1280×640 Kronecker product of the 128×128 identity with
  the transposed weight, adds the bias tiled 128 times along a row, and views the 8192×640 result as 1048576×5 again.

  Over the extended reals both end with, at `(b, j)`, `Σ_{k < 10} w(j, k) · x(b, k) + bias(j)`
  (`Cert.Linear.linear`). For the reference that is its own sum read through the two transposes. For the kernel the
  1280-term sum of row `b`'s packed row against column `5·(b % 128) + j` of the block-diagonal matrix has, outside the
  ten positions of slot `b % 128`, only terms with a factor zero (the identity's off-diagonal entries), and these
  vanish on the extended reals whatever the other factors are; inside the slot the identity's entry is one and the
  input row is `b` itself. The two sums then differ only in the order of each product's factors. No finiteness of the
  inputs is used.

  Each program runs, terminates and leaves its arguments unchanged (the three frames); the kernel's idealization
  rewrote nothing, so there is nothing to preserve; and the two idealized programs end with equal results.
-/
import proofs.«143315_g2000306541791108_pallasbulk_683_3_alg».proof.Defs
import proofs.«143315_g2000306541791108_pallasbulk_683_3_alg».proof.Proof.Gen.Kernel
import proofs.«143315_g2000306541791108_pallasbulk_683_3_alg».proof.Proof.Gen.Kernel.Skeleton
import proofs.«143315_g2000306541791108_pallasbulk_683_3_alg».proof.Proof.Gen.Kernel.Launch
import proofs.«143315_g2000306541791108_pallasbulk_683_3_alg».proof.Proof.Gen.Kernel.Points
import proofs.«143315_g2000306541791108_pallasbulk_683_3_alg».proof.Proof.Gen.Kernel.Frame
import proofs.«143315_g2000306541791108_pallasbulk_683_3_alg».proof.Proof.Gen.KernelIdeal
import proofs.«143315_g2000306541791108_pallasbulk_683_3_alg».proof.Proof.Gen.KernelIdeal.Skeleton
import proofs.«143315_g2000306541791108_pallasbulk_683_3_alg».proof.Proof.Gen.KernelIdeal.Launch
import proofs.«143315_g2000306541791108_pallasbulk_683_3_alg».proof.Proof.Gen.KernelIdeal.Points
import proofs.«143315_g2000306541791108_pallasbulk_683_3_alg».proof.Proof.Gen.KernelIdeal.Frame
import proofs.«143315_g2000306541791108_pallasbulk_683_3_alg».proof.Proof.Gen.ReferenceIdeal
import proofs.«143315_g2000306541791108_pallasbulk_683_3_alg».proof.Proof.Gen.ReferenceIdeal.Skeleton
import proofs.«143315_g2000306541791108_pallasbulk_683_3_alg».proof.Proof.Gen.ReferenceIdeal.Launch
import proofs.«143315_g2000306541791108_pallasbulk_683_3_alg».proof.Proof.Gen.ReferenceIdeal.Points
import proofs.«143315_g2000306541791108_pallasbulk_683_3_alg».proof.Proof.Gen.ReferenceIdeal.Frame
import proofs.«143315_g2000306541791108_pallasbulk_683_3_alg».proof.Proof.Gen.Pre_finite_inputs
import proofs.«143315_g2000306541791108_pallasbulk_683_3_alg».proof.Proof.KerRun
import proofs.«143315_g2000306541791108_pallasbulk_683_3_alg».proof.Proof.RefRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals, -/
theorem frame_kernel_ideal : Cert.frame_KernelIdeal := fun m ρ _ => Cert.KernelIdeal.Gen.frame m ρ

/-- and the reference read over the extended reals. -/
theorem frame_reference_ideal : Cert.frame_ReferenceIdeal := fun m ρ _ => Cert.ReferenceIdeal.Gen.frame m ρ

/-- The idealization rewrote no operation. -/
theorem preserves : Cert.preserves_Kernel_KernelIdeal := trivial

/-- From memories that agree on the arguments both idealized programs end with the linear layer of those arguments
    in their result buffers, and their arguments unchanged. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Run.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
